-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S80000 : Shape := ⟨1, ![80000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S80000 : S_.BroadcastsInDim S80000 (![] : Fin 0 → Fin S80000.rank)
  reducesTo_S80000_S_d0 : S80000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg8 : FVec F S50000x128 .f32) (main_arg9 : FVec F S128x128 .f32) (main_arg10 : FVec F S128x128 .f32) (main_arg11 : FVec F S128 .f32) (main_v13 : IVec S_ 1) (main_v16 : IVec S80000 1) : IVec S_ 1 :=
  let main_c_5 : IVec S_ 1 := constantI S_ 1 1#1
  let main_v17 : IVec S_ 1 := (fun x v => Host.reduce IntOp.andi x v reducesTo_S80000_S_d0 h_S_) main_v16 main_c_5
  let main_v18 : IVec S_ 1 := andi main_v13 main_v17
  let main_v19 : FVec F S50000x128 .f32 := Host.absf main_arg8
  let main_cst_6 : FVec F S_ .f32 := constant S_ .f32 0x7F800000#32
  let main_v20 : FVec F S50000x128 .f32 := broadcastInDim S50000x128 ![] bcast_S_S50000x128 main_cst_6
  let main_v21 : IVec S50000x128 1 := cmpf .olt main_v19 main_v20
  let main_c_7 : IVec S_ 1 := constantI S_ 1 1#1
  let main_v22 : IVec S_ 1 := (fun x v => Host.reduce IntOp.andi x v reducesTo_S50000x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_v33

def fn {F : FTy → Type} [FloatOps F] (main_arg0 : FVec F S50000x128 .f32) (main_arg1 : FVec F S50000x128 .f32) (main_arg2 : IVec S800000 32) (main_arg3 : IVec S800000 32) (main_arg4 : FVec F S800000 .f32) (main_arg5 : IVec S80000 32) (main_arg6 : IVec S80000 32) (main_arg7 : FVec F S80000 .f32) (main_arg8 : FVec F S50000x128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S80000 .f32 := Host.absf main_arg7
  let main_cst_4 : FVec F S_ .f32 := constant S_ .f32 0x7F800000#32
  let main_v15 : FVec F S80000 .f32 := broadcastInDim S80000 ![] bcast_S_S80000 main_cst_4
  let main_v16 : IVec S80000 1 := cmpf .olt main_v14 main_v15
  fn_part1 (F := F) main_arg8 main_arg9 main_arg10 main_arg11 main_v13 main_v16
-- ==== Kernel.lean ====
abbrev S50000x128 : Shape := ⟨2, ![50000, 128]⟩
abbrev S800000 : Shape := ⟨1, ![800000]⟩
abbrev S80000 : Shape := ⟨1, ![80000]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S80000x1 : Shape := ⟨2, ![80000, 1]⟩
abbrev S80000x128 : Shape := ⟨2, ![80000, 128]⟩
abbrev S1x128 : Shape := ⟨2, ![1, 128]⟩
abbrev S2000x128 : Shape := ⟨2, ![2000, 128]⟩

abbrev nBuf : Space → Nat
  | .hbm => 80
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S80000, .i32⟩
  | .hbm, ⟨6, _⟩ => ⟨S80000, .i32⟩
  | .hbm, ⟨7, _⟩ => ⟨S80000, .f32⟩
  | .hbm, ⟨8, _⟩ => ⟨S50000x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S80000x1, .f32⟩
  | .hbm, ⟨45, _⟩ => ⟨S_, .i32⟩
  | .hbm, ⟨46, _⟩ => ⟨S80000, .i32⟩
  | .hbm, ⟨47, _⟩ => ⟨S80000, .i1⟩
  | .hbm, ⟨48, _⟩ => ⟨S_, .i32⟩
  | .hbm, ⟨49, _⟩ => ⟨S80000, .i32⟩
  | .hbm, ⟨50, _⟩ => ⟨S80000, .i32⟩
  | .hbm, ⟨51, _⟩ => ⟨S80000, .i32⟩
  | .hbm, ⟨52, _⟩ => ⟨S80000x1, .i32⟩
  | .hbm, ⟨53, _⟩ => ⟨S80000x128, .f32⟩
  | .hbm, ⟨54, _⟩ => ⟨S80000x128, .f32⟩
  | .hbm, ⟨55, _⟩ => ⟨S80000x128, .f32⟩
  | .hbm, ⟨56, _⟩ => ⟨S_, .f32⟩
  | .hbm, ⟨57, _⟩ => ⟨S50000x128, .f32⟩
  | .hbm, ⟨58, _⟩ => ⟨S80000x1, .i32⟩
  | .hbm, ⟨59, _⟩ => ⟨S50000x128, .f32⟩
  | .hbm, ⟨60, _⟩ => ⟨S80000x1, .f32⟩
  | .hbm, ⟨61, _⟩ => ⟨S_, .i32⟩
  | .hbm, ⟨62, _⟩ => ⟨S80000, .i32⟩
  | .hbm, ⟨63, _⟩ => ⟨S80000, .i1⟩
  | .hbm, ⟨64, _⟩ => ⟨S_, .i32⟩
  | .hbm, ⟨65, _⟩ => ⟨S80000, .i32⟩
  | .hbm, ⟨66, _⟩ => ⟨S80000, .i32⟩
  | .hbm, ⟨67, _⟩ => ⟨S80000, .i32⟩
  | .hbm, ⟨68, _⟩ => ⟨S80000x1, .i32⟩
  | .hbm, ⟨69, _⟩ => ⟨S80000x128, .f32⟩
  | .hbm, ⟨70, _⟩ => ⟨S80000x128, .f32⟩
  | .hbm, ⟨71, _⟩ => ⟨S80000x128, .f32⟩
  | .hbm, ⟨72, _⟩ => ⟨S_, .f32⟩
  | .hbm, ⟨73, _⟩ => ⟨S50000x128, .f32⟩
  | .hbm, ⟨74, _⟩ => ⟨S80000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v53_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x128_0_1 : S80000x1.BroadcastsInDim S80000x128 (![0, 1] : Fin 2 → Fin S80000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S80000x1_S80000x128_1_0_n_n_0_1_1128_wf : GatherDims.WF S50000x128 S80000x1 S80000x128 [1] [0] [] [0] [] 1 ![1, 128]
  scatter_S50000x128_S80000x1_S80000x128_1_0_0_1_wf : ScatterDims.WF S50000x128 S80000x1 S80000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S80000x1_S80000x128_1_0_n_n_0_1_1128 : GatherDims S50000x128 S80000x1 S80000x128 where
  offsetDims := [1]
  collapsedSliceDims := [0]
  operandBatchingDims := []
  startIndicesBatchingDims := []
  startIndexMap := [0]
  indexVectorDim := 1
  sliceSizes := ![1, 128]
  wf := gather_S50000x128_S80000x1_S80000x128_1_0_n_n_0_1_1128_wf
def scatter_S50000x128_S80000x1_S80000x128_1_0_0_1 : ScatterDims S50000x128 S80000x1 S80000x128 where
  updateWindowDims := [1]
  insertedWindowDims := [0]
  scatterDimsToOperandDims := [0]
  indexVectorDim := 1
  wf := scatter_S50000x128_S80000x1_S80000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v53_1) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v53_2) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S80000 : Shape := ⟨1, ![80000]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S80000x1 : Shape := ⟨2, ![80000, 1]⟩
abbrev S80000x128 : Shape := ⟨2, ![80000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S80000, .i32⟩
  | .hbm, ⟨6, _⟩ => ⟨S80000, .i32⟩
  | .hbm, ⟨7, _⟩ => ⟨S80000, .f32⟩
  | .hbm, ⟨8, _⟩ => ⟨S50000x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S80000x1, .f32⟩
  | .hbm, ⟨45, _⟩ => ⟨S_, .i32⟩
  | .hbm, ⟨46, _⟩ => ⟨S80000, .i32⟩
  | .hbm, ⟨47, _⟩ => ⟨S80000, .i1⟩
  | .hbm, ⟨48, _⟩ => ⟨S_, .i32⟩
  | .hbm, ⟨49, _⟩ => ⟨S80000, .i32⟩
  | .hbm, ⟨50, _⟩ => ⟨S80000, .i32⟩
  | .hbm, ⟨51, _⟩ => ⟨S80000, .i32⟩
  | .hbm, ⟨52, _⟩ => ⟨S80000x1, .i32⟩
  | .hbm, ⟨53, _⟩ => ⟨S80000x128, .f32⟩
  | .hbm, ⟨54, _⟩ => ⟨S80000x128, .f32⟩
  | .hbm, ⟨55, _⟩ => ⟨S80000x128, .f32⟩
  | .hbm, ⟨56, _⟩ => ⟨S_, .f32⟩
  | .hbm, ⟨57, _⟩ => ⟨S50000x128, .f32⟩
  | .hbm, ⟨58, _⟩ => ⟨S80000x1, .i32⟩
  | .hbm, ⟨59, _⟩ => ⟨S50000x128, .f32⟩
  | .hbm, ⟨60, _⟩ => ⟨S80000x1, .f32⟩
  | .hbm, ⟨61, _⟩ => ⟨S_, .i32⟩
  | .hbm, ⟨62, _⟩ => ⟨S80000, .i32⟩
  | .hbm, ⟨63, _⟩ => ⟨S80000, .i1⟩
  | .hbm, ⟨64, _⟩ => ⟨S_, .i32⟩
  | .hbm, ⟨65, _⟩ => ⟨S80000, .i32⟩
  | .hbm, ⟨66, _⟩ => ⟨S80000, .i32⟩
  | .hbm, ⟨67, _⟩ => ⟨S80000, .i32⟩
  | .hbm, ⟨68, _⟩ => ⟨S80000x1, .i32⟩
  | .hbm, ⟨69, _⟩ => ⟨S80000x128, .f32⟩
  | .hbm, ⟨70, _⟩ => ⟨S80000x128, .f32⟩
  | .hbm, ⟨71, _⟩ => ⟨S80000x128, .f32⟩
  | .hbm, ⟨72, _⟩ => ⟨S_, .f32⟩
  | .hbm, ⟨73, _⟩ => ⟨S50000x128, .f32⟩
  | .hbm, ⟨74, _⟩ => ⟨S80000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x128_0_1 : S80000x1.BroadcastsInDim S80000x128 (![0, 1] : Fin 2 → Fin S80000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S80000x1_S80000x128_1_0_n_n_0_1_1128_wf : GatherDims.WF S50000x128 S80000x1 S80000x128 [1] [0] [] [0] [] 1 ![1, 128]
  scatter_S50000x128_S80000x1_S80000x128_1_0_0_1_wf : ScatterDims.WF S50000x128 S80000x1 S80000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S80000x1_S80000x128_1_0_n_n_0_1_1128 : GatherDims S50000x128 S80000x1 S80000x128 where
  offsetDims := [1]
  collapsedSliceDims := [0]
  operandBatchingDims := []
  startIndicesBatchingDims := []
  startIndexMap := [0]
  indexVectorDim := 1
  sliceSizes := ![1, 128]
  wf := gather_S50000x128_S80000x1_S80000x128_1_0_n_n_0_1_1128_wf
def scatter_S50000x128_S80000x1_S80000x128_1_0_0_1 : ScatterDims S50000x128 S80000x1 S80000x128 where
  updateWindowDims := [1]
  insertedWindowDims := [0]
  scatterDimsToOperandDims := [0]
  indexVectorDim := 1
  wf := scatter_S50000x128_S80000x1_S80000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LayerSpec.lean ====
/-
  The layer's three results as functions of its dense inputs, index by index, on the extended reals.

  Four aggregated feature arrays (rows × 128) enter: `ah` (the cached graph on the cached features) and the three
  correction terms `adh`, `dah`, `dadh`. The layer forms
    the fixed-term input   f = (adh + dah) + dadh,
    the total aggregate    b = ah + f,
    the fixed term         f · W,
    the updated output     ((z + f · W) + b · dW) + bias,   the bias a vector over the 128 columns, added to every row.
  Every entry of every result depends on ONE row of the row-indexed inputs (and on whole `W`, `dW`, `bias`): so a
  block of rows of a result is the same function of the corresponding block of rows of the inputs (`*_rows`), which is
  what lets a computation done block of rows by block of rows be compared with the one done on whole arrays.
  Only commutativity-free rewriting is used: the sums are taken in the same order on both sides, so no finiteness is needed.
-/
import Idealize.ShloMosaic.Lib.ValueIdx
import proofs.«127560_j19782619365928_1_alg».proof.Proof.LibPlainDot

noncomputable section

namespace Cert.ExiLayer

open Idealize.ShloMosaic Idealize.ShloMosaic.ValueIdx Cert.Lib.PlainDot

/-- An array of `n` rows and 128 columns of extended reals. -/
abbrev Mat (n : ℕ) : Type := (⟨2, ![n, 128]⟩ : Shape).Idx → EReal
/-- A vector over the 128 columns. -/
abbrev Row : Type := (⟨1, ![128]⟩ : Shape).Idx → EReal

/-- A `1 × 128` row read as a vector over the 128 columns. -/
def rowOf (r : (⟨2, ![1, 128]⟩ : Shape).Idx → EReal) : Row := fun k => r (ix2 (0 : Fin 1) (⟨(k 0).val, (k 0).isLt⟩ : Fin 128))

variable {n n' : ℕ}

/-- The fixed-term input `(adh + dah) + dadh`. -/
def fixedIn (adh dah dadh : Mat n) : Mat n := fun i => adh i + dah i + dadh i

/-- The total aggregate `ah + ((adh + dah) + dadh)`. -/
def total (ah adh dah dadh : Mat n) : Mat n := fun i => ah i + fixedIn adh dah dadh i

/-- The fixed term: the fixed-term input times `W`. -/
def fixedTerm (adh dah dadh : Mat n) (W : Mat 128) : Mat n := rowsByCols (fixedIn adh dah dadh) W

/-- The updated output `((z + f · W) + b · dW) + bias`. -/
def updated (ah adh dah dadh z : Mat n) (W dW : Mat 128) (bias : Row) : Mat n := fun i =>
  z i + fixedTerm adh dah dadh W i + rowsByCols (total ah adh dah dadh) dW i + bias (ix1 (⟨(i 1).val, idx2_lt1 i⟩ : Fin 128))

/-- Row `p'` of the fixed-term input of blocks is row `p` of the fixed-term input of arrays whose rows `p` are the
    blocks' rows `p'`. -/
theorem fixedIn_rows (adh' dah' dadh' : Mat n') (adh dah dadh : Mat n) (p' : Fin n') (p : Fin n)
    (h1 : ∀ k : Fin 128, adh' (ix2 p' k) = adh (ix2 p k)) (h2 : ∀ k : Fin 128, dah' (ix2 p' k) = dah (ix2 p k))
    (h3 : ∀ k : Fin 128, dadh' (ix2 p' k) = dadh (ix2 p k)) (k : Fin 128) :
    fixedIn adh' dah' dadh' (ix2 p' k) = fixedIn adh dah dadh (ix2 p k) := by
  unfold fixedIn
  rw [h1 k, h2 k, h3 k]

/-- The same for the total aggregate. -/
theorem total_rows (ah' adh' dah' dadh' : Mat n') (ah adh dah dadh : Mat n) (p' : Fin n') (p : Fin n)
    (h0 : ∀ k : Fin 128, ah' (ix2 p' k) = ah (ix2 p k))
    (h1 : ∀ k : Fin 128, adh' (ix2 p' k) = adh (ix2 p k)) (h2 : ∀ k : Fin 128, dah' (ix2 p' k) = dah (ix2 p k))
    (h3 : ∀ k : Fin 128, dadh' (ix2 p' k) = dadh (ix2 p k)) (k : Fin 128) :
    total ah' adh' dah' dadh' (ix2 p' k) = total ah adh dah dadh (ix2 p k) := by
  unfold total
  rw [h0 k, fixedIn_rows adh' dah' dadh' adh dah dadh p' p h1 h2 h3 k]

/-- The same for the fixed term: a row of a product is the product of the row. -/
theorem fixedTerm_rows (adh' dah' dadh' : Mat n') (adh dah dadh : Mat n) (W : Mat 128) (p' : Fin n') (p : Fin n)
    (h1 : ∀ k : Fin 128, adh' (ix2 p' k) = adh (ix2 p k)) (h2 : ∀ k : Fin 128, dah' (ix2 p' k) = dah (ix2 p k))
    (h3 : ∀ k : Fin 128, dadh' (ix2 p' k) = dadh (ix2 p k)) (q : Fin 128) :
    fixedTerm adh' dah' dadh' W (ix2 p' q) = fixedTerm adh dah dadh W (ix2 p q) := by
  unfold fixedTerm
  exact rowsByCols_congr (fixedIn adh dah dadh) W (fixedIn adh' dah' dadh') W (ix2 p' q) (ix2 p q)
    (fun k => fixedIn_rows adh' dah' dadh' adh dah dadh p' p h1 h2 h3 k) (fun _ => rfl)

/-- The same for the updated output. -/
theorem updated_rows (ah' adh' dah' dadh' z' : Mat n') (ah adh dah dadh z : Mat n) (W dW : Mat 128) (bias : Row)
    (p' : Fin n') (p : Fin n)
    (h0 : ∀ k : Fin 128, ah' (ix2 p' k) = ah (ix2 p k))
    (h1 : ∀ k : Fin 128, adh' (ix2 p' k) = adh (ix2 p k)) (h2 : ∀ k : Fin 128, dah' (ix2 p' k) = dah (ix2 p k))
    (h3 : ∀ k : Fin 128, dadh' (ix2 p' k) = dadh (ix2 p k)) (h4 : ∀ k : Fin 128, z' (ix2 p' k) = z (ix2 p k)) (q : Fin 128) :
    updated ah' adh' dah' dadh' z' W dW bias (ix2 p' q) = updated ah adh dah dadh z W dW bias (ix2 p q) := by
  unfold updated
  rw [h4 q, fixedTerm_rows adh' dah' dadh' adh dah dadh W p' p h1 h2 h3 q,
    rowsByCols_congr (total ah adh dah dadh) dW (total ah' adh' dah' dadh') dW (ix2 p' q) (ix2 p q)
      (fun k => total_rows ah' adh' dah' dadh' ah adh dah dadh p' p h0 h1 h2 h3 k) (fun _ => rfl)]
  rfl

end Cert.ExiLayer

end
-- ==== Proof.RefLayer.lean ====
/-
  The reference's three results are the layer's three functions of the four aggregated arrays it forms first.

  The reference computes four sparse aggregations (each a gather of feature rows, a scaling by the edge weights and a
  scatter-add into the rows named by the edge targets), then `f = (adh + dah) + dadh`, `f · W`, `b = ah + f` and
  `((z + f · W) + b · dW) + bias` with the bias vector spread over the rows. The aggregations are never opened here:
  the dense stage is read over arbitrary arrays in their place, and the statements hold for whatever they produce.
-/
import proofs.«127560_j19782619365928_1_alg».proof.Proof.Gen.ReferenceIdeal.Read
import proofs.«127560_j19782619365928_1_alg».proof.Proof.LayerSpec

noncomputable section

namespace Cert.ExiLayer.Ref

open Cert.ReferenceIdeal Cert.ReferenceIdeal.Gen Cert.ReferenceIdeal.Read Idealize.ShloMosaic Idealize.ShloMosaic.ValueIdx
  Cert.Lib.PlainDot

/-- The reference's two matrix products contract the left operand's columns with the right operand's rows. -/
theorem dot_plain : dot_S50000x128_S128x128_S50000x128_1_0_0_1_n_n = DotDims.plain 50000 128 128 := rfl

/-! ## The dense stage over arbitrary aggregated arrays -/

section Dense

variable (a0 a1 a2 a3 z : FVec Ideal S50000x128 .f32) (w dw : FVec Ideal S128x128 .f32) (b : FVec Ideal S128 .f32)

/-- The bias vector spread over the rows reads, at `(p, q)`, the vector at `q`. -/
theorem bias_apply (i : S50000x128.Idx) :
    val_main_v60 (F := Ideal) b i = b (ix1 (⟨(i 1).val, idx2_lt1 i⟩ : Fin 128)) := by
  rw [val_main_v60_apply, val_main_v59_apply]
  refine congrArg b (funext fun a => ?_)
  match a with
  | ⟨0, _⟩ => rfl

/-- The two sums of the correction arrays. -/
theorem fixedIn_dense : addf (addf a1 a2) a3 = fixedIn a1 a2 a3 := rfl

/-- The sum with the first array. -/
theorem total_dense : addf a0 (addf (addf a1 a2) a3) = total a0 a1 a2 a3 := rfl

/-- The product with `W`. -/
theorem fixedTerm_dense :
    Host.dotGeneral dot_S50000x128_S128x128_S50000x128_1_0_0_1_n_n none (addf (addf a1 a2) a3) w = fixedTerm a1 a2 a3 w :=
  dotGeneral_eq _ dot_plain none _ _ _

/-- The product of the total with `dW`. -/
theorem delta_dense :
    Host.dotGeneral dot_S50000x128_S128x128_S50000x128_1_0_0_1_n_n none (addf a0 (addf (addf a1 a2) a3)) dw
      = rowsByCols (total a0 a1 a2 a3) dw :=
  dotGeneral_eq _ dot_plain none _ _ _

/-- The last three sums. -/
theorem updated_dense :
    addf (addf (addf z (Host.dotGeneral dot_S50000x128_S128x128_S50000x128_1_0_0_1_n_n none (addf (addf a1 a2) a3) w))
        (Host.dotGeneral dot_S50000x128_S128x128_S50000x128_1_0_0_1_n_n none (addf a0 (addf (addf a1 a2) a3)) dw))
      (val_main_v60 (F := Ideal) b) = updated a0 a1 a2 a3 z w dw b := by
  funext i
  show z i + Host.dotGeneral dot_S50000x128_S128x128_S50000x128_1_0_0_1_n_n none (addf (addf a1 a2) a3) w i
      + Host.dotGeneral dot_S50000x128_S128x128_S50000x128_1_0_0_1_n_n none (addf a0 (addf (addf a1 a2) a3)) dw i
      + val_main_v60 (F := Ideal) b i = _
  rw [fixedTerm_dense, delta_dense, bias_apply]
  rfl

end Dense

/-! ## The reference's stages -/

variable (x0 x1 : (⟨S50000x128, .f32⟩ : BufTy).Contents (Elt Ideal)) (x2 x3 : (⟨S800000, .i32⟩ : BufTy).Contents (Elt Ideal))
  (x4 : (⟨S800000, .f32⟩ : BufTy).Contents (Elt Ideal)) (x5 x6 : (⟨S80000, .i32⟩ : BufTy).Contents (Elt Ideal))
  (x7 : (⟨S80000, .f32⟩ : BufTy).Contents (Elt Ideal)) (x8 : (⟨S50000x128, .f32⟩ : BufTy).Contents (Elt Ideal))
  (x9 x10 : (⟨S128x128, .f32⟩ : BufTy).Contents (Elt Ideal)) (x11 : (⟨S128, .f32⟩ : BufTy).Contents (Elt Ideal))

/-- The third result: the total aggregate. -/
theorem total_eq : val_main_v55 (F := Ideal) x0 x1 x2 x3 x4 x5 x6 x7
    = total (val_main_v12 (F := Ideal) x0 x2 x3 x4) (val_main_v25 (F := Ideal) x1 x2 x3 x4) (val_main_v38 (F := Ideal) x0 x5 x6 x7)
        (val_main_v51 (F := Ideal) x1 x5 x6 x7) := by
  unfold val_main_v55 val_main_v53 val_main_v52
  exact total_dense _ _ _ _

/-- The second result: the fixed term. -/
theorem fixedTerm_eq : val_main_v54 (F := Ideal) x0 x1 x2 x3 x4 x5 x6 x7 x9
    = fixedTerm (val_main_v25 (F := Ideal) x1 x2 x3 x4) (val_main_v38 (F := Ideal) x0 x5 x6 x7) (val_main_v51 (F := Ideal) x1 x5 x6 x7) x9 := by
  unfold val_main_v54 val_main_v53 val_main_v52
  exact fixedTerm_dense _ _ _ _

/-- The first result: the updated output. -/
theorem updated_eq : val_main_v61 (F := Ideal) x0 x1 x2 x3 x4 x5 x6 x7 x8 x9 x10 x11
    = updated (val_main_v12 (F := Ideal) x0 x2 x3 x4) (val_main_v25 (F := Ideal) x1 x2 x3 x4) (val_main_v38 (F := Ideal) x0 x5 x6 x7)
        (val_main_v51 (F := Ideal) x1 x5 x6 x7) x8 x9 x10 x11 := by
  unfold val_main_v61 val_main_v58 val_main_v56 val_main_v57 val_main_v54 val_main_v55 val_main_v53 val_main_v52
  exact updated_dense _ _ _ _ _ _ _ _

end Cert.ExiLayer.Ref

end
-- ==== Proof.KernelBlocks.lean ====
/-
  The blocks the kernel's windows stage, as rows of the arrays the region finds.

  The grid has 25 points. At point `t` each of the five row-indexed input windows (the four aggregated arrays and
  `z`) and each of the three output windows stages rows `2000 t … 2000 t + 1999` of its array, all 128 columns;
  the windows of `W`, `dW` and the bias row stage their whole arrays at every point.
-/
import proofs.«127560_j19782619365928_1_alg».proof.Proof.Gen.KernelIdeal.Frame
import Idealize.ShloMosaic.Lib.Pipeline.Value
import Idealize.ShloMosaic.Lib.ValueIdx

noncomputable section

namespace Cert.ExiLayer.Kern

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices at every grid point: the row-indexed windows sit at block row `t`, block column 0; the
    whole-array windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- A grid point's number is below 25. -/
theorem point_lt (t : Fin cfg0.N) : t.val < 25 := by
  have h : cfg0.N = 25 := N_0
  have := t.isLt
  omega

/-- Row `p'` of the block at point `t` is row `2000 t + p'` of the array. -/
def rowAt (t : Fin cfg0.N) (p' : Fin 2000) : Fin 50000 := ⟨2000 * t.val + p'.val, by have := point_lt t; have := p'.isLt; omega⟩

/-- Window 0 (the first aggregated array) at point `t`, read off ANY contents `A` of its array: row `p'` of the block is row
    `2000 t + p'` of `A`. -/
theorem read_rows0 (t : Fin cfg0.N) (A : S50000x128.Idx → EReal) (p' : Fin 2000) (k : Fin 128) :
    (((cfg0.win 0).blk t).view.read (Elt Ideal) A : S2000x128.Idx → EReal) (ix2 p' k) = A (ix2 (rowAt t p') k) := by
  obtain ⟨⟨e0, e1⟩, -⟩ := idx_facts t
  rw [View.read_apply]
  show A _ = A _
  refine congrArg A (funext fun a => Fin.ext ?_)
  match a with
  | ⟨0, _⟩ => show win0_0.index t (0 : Fin 2) * 2000 + 1 * p'.val = 2000 * t.val + p'.val; rw [e0]; omega
  | ⟨1, _⟩ => show win0_0.index t (1 : Fin 2) * 128 + 1 * k.val = k.val; rw [e1]; omega

/-- Window 1 (the second aggregated array) at point `t`, read off ANY contents `A` of its array: row `p'` of the block is row
    `2000 t + p'` of `A`. -/
theorem read_rows1 (t : Fin cfg0.N) (A : S50000x128.Idx → EReal) (p' : Fin 2000) (k : Fin 128) :
    (((cfg0.win 1).blk t).view.read (Elt Ideal) A : S2000x128.Idx → EReal) (ix2 p' k) = A (ix2 (rowAt t p') k) := by
  obtain ⟨-, ⟨e0, e1⟩, -⟩ := idx_facts t
  rw [View.read_apply]
  show A _ = A _
  refine congrArg A (funext fun a => Fin.ext ?_)
  match a with
  | ⟨0, _⟩ => show win0_1.index t (0 : Fin 2) * 2000 + 1 * p'.val = 2000 * t.val + p'.val; rw [e0]; omega
  | ⟨1, _⟩ => show win0_1.index t (1 : Fin 2) * 128 + 1 * k.val = k.val; rw [e1]; omega

/-- Window 2 (the third aggregated array) at point `t`, read off ANY contents `A` of its array: row `p'` of the block is row
    `2000 t + p'` of `A`. -/
theorem read_rows2 (t : Fin cfg0.N) (A : S50000x128.Idx → EReal) (p' : Fin 2000) (k : Fin 128) :
    (((cfg0.win 2).blk t).view.read (Elt Ideal) A : S2000x128.Idx → EReal) (ix2 p' k) = A (ix2 (rowAt t p') k) := by
  obtain ⟨-, -, ⟨e0, e1⟩, -⟩ := idx_facts t
  rw [View.read_apply]
  show A _ = A _
  refine congrArg A (funext fun a => Fin.ext ?_)
  match a with
  | ⟨0, _⟩ => show win0_2.index t (0 : Fin 2) * 2000 + 1 * p'.val = 2000 * t.val + p'.val; rw [e0]; omega
  | ⟨1, _⟩ => show win0_2.index t (1 : Fin 2) * 128 + 1 * k.val = k.val; rw [e1]; omega

/-- Window 3 (the fourth aggregated array) at point `t`, read off ANY contents `A` of its array: row `p'` of the block is row
    `2000 t + p'` of `A`. -/
theorem read_rows3 (t : Fin cfg0.N) (A : S50000x128.Idx → EReal) (p' : Fin 2000) (k : Fin 128) :
    (((cfg0.win 3).blk t).view.read (Elt Ideal) A : S2000x128.Idx → EReal) (ix2 p' k) = A (ix2 (rowAt t p') k) := by
  obtain ⟨-, -, -, ⟨e0, e1⟩, -⟩ := idx_facts t
  rw [View.read_apply]
  show A _ = A _
  refine congrArg A (funext fun a => Fin.ext ?_)
  match a with
  | ⟨0, _⟩ => show win0_3.index t (0 : Fin 2) * 2000 + 1 * p'.val = 2000 * t.val + p'.val; rw [e0]; omega
  | ⟨1, _⟩ => show win0_3.index t (1 : Fin 2) * 128 + 1 * k.val = k.val; rw [e1]; omega

/-- Window 4 (`z`) at point `t`, read off ANY contents `A` of its array: row `p'` of the block is row
    `2000 t + p'` of `A`. -/
theorem read_rows4 (t : Fin cfg0.N) (A : S50000x128.Idx → EReal) (p' : Fin 2000) (k : Fin 128) :
    (((cfg0.win 4).blk t).view.read (Elt Ideal) A : S2000x128.Idx → EReal) (ix2 p' k) = A (ix2 (rowAt t p') k) := by
  obtain ⟨-, -, -, -, ⟨e0, e1⟩, -⟩ := idx_facts t
  rw [View.read_apply]
  show A _ = A _
  refine congrArg A (funext fun a => Fin.ext ?_)
  match a with
  | ⟨0, _⟩ => show win0_4.index t (0 : Fin 2) * 2000 + 1 * p'.val = 2000 * t.val + p'.val; rw [e0]; omega
  | ⟨1, _⟩ => show win0_4.index t (1 : Fin 2) * 128 + 1 * k.val = k.val; rw [e1]; omega

/-- Window 8 (the updated output) at point `t`, read off ANY contents `A` of its array: row `p'` of the block is row
    `2000 t + p'` of `A`. -/
theorem read_rows8 (t : Fin cfg0.N) (A : S50000x128.Idx → EReal) (p' : Fin 2000) (k : Fin 128) :
    (((cfg0.win 8).blk t).view.read (Elt Ideal) A : S2000x128.Idx → EReal) (ix2 p' k) = A (ix2 (rowAt t p') k) := by
  obtain ⟨-, -, -, -, -, -, -, -, ⟨e0, e1⟩, -⟩ := idx_facts t
  rw [View.read_apply]
  show A _ = A _
  refine congrArg A (funext fun a => Fin.ext ?_)
  match a with
  | ⟨0, _⟩ => show win0_8.index t (0 : Fin 2) * 2000 + 1 * p'.val = 2000 * t.val + p'.val; rw [e0]; omega
  | ⟨1, _⟩ => show win0_8.index t (1 : Fin 2) * 128 + 1 * k.val = k.val; rw [e1]; omega

/-- Window 9 (the fixed term) at point `t`, read off ANY contents `A` of its array: row `p'` of the block is row
    `2000 t + p'` of `A`. -/
theorem read_rows9 (t : Fin cfg0.N) (A : S50000x128.Idx → EReal) (p' : Fin 2000) (k : Fin 128) :
    (((cfg0.win 9).blk t).view.read (Elt Ideal) A : S2000x128.Idx → EReal) (ix2 p' k) = A (ix2 (rowAt t p') k) := by
  obtain ⟨-, -, -, -, -, -, -, -, -, ⟨e0, e1⟩, -⟩ := idx_facts t
  rw [View.read_apply]
  show A _ = A _
  refine congrArg A (funext fun a => Fin.ext ?_)
  match a with
  | ⟨0, _⟩ => show win0_9.index t (0 : Fin 2) * 2000 + 1 * p'.val = 2000 * t.val + p'.val; rw [e0]; omega
  | ⟨1, _⟩ => show win0_9.index t (1 : Fin 2) * 128 + 1 * k.val = k.val; rw [e1]; omega

/-- Window 10 (the total aggregate) at point `t`, read off ANY contents `A` of its array: row `p'` of the block is row
    `2000 t + p'` of `A`. -/
theorem read_rows10 (t : Fin cfg0.N) (A : S50000x128.Idx → EReal) (p' : Fin 2000) (k : Fin 128) :
    (((cfg0.win 10).blk t).view.read (Elt Ideal) A : S2000x128.Idx → EReal) (ix2 p' k) = A (ix2 (rowAt t p') k) := by
  obtain ⟨-, -, -, -, -, -, -, -, -, -, ⟨e0, e1⟩⟩ := idx_facts t
  rw [View.read_apply]
  show A _ = A _
  refine congrArg A (funext fun a => Fin.ext ?_)
  match a with
  | ⟨0, _⟩ => show win0_10.index t (0 : Fin 2) * 2000 + 1 * p'.val = 2000 * t.val + p'.val; rw [e0]; omega
  | ⟨1, _⟩ => show win0_10.index t (1 : Fin 2) * 128 + 1 * k.val = k.val; rw [e1]; omega

/-- Window 5 (`W`) stages its whole array at every point. -/
theorem read_whole5 (t : Fin cfg0.N) (A : S128x128.Idx → EReal) :
    (((cfg0.win 5).blk t).view.read (Elt Ideal) A : S128x128.Idx → EReal) = A := by
  obtain ⟨-, -, -, -, -, ⟨e0, e1⟩, -⟩ := idx_facts t
  funext y
  rw [View.read_apply]
  show A _ = A _
  refine congrArg A (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6 (`dW`) stages its whole array at every point. -/
theorem read_whole6 (t : Fin cfg0.N) (A : S128x128.Idx → EReal) :
    (((cfg0.win 6).blk t).view.read (Elt Ideal) A : S128x128.Idx → EReal) = A := by
  obtain ⟨-, -, -, -, -, -, ⟨e0, e1⟩, -⟩ := idx_facts t
  funext y
  rw [View.read_apply]
  show A _ = A _
  refine congrArg A (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- Window 7 (the bias row) stages its whole array at every point. -/
theorem read_whole7 (t : Fin cfg0.N) (A : S1x128.Idx → EReal) :
    (((cfg0.win 7).blk t).view.read (Elt Ideal) A : S1x128.Idx → EReal) = A := by
  obtain ⟨-, -, -, -, -, -, -, ⟨e0, e1⟩, -⟩ := idx_facts t
  funext y
  rw [View.read_apply]
  show A _ = A _
  refine congrArg A (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Input window 0's block at point `t` is those rows of its array as the region finds it. -/
theorem blk0 (c : Dev nD) (t : Fin cfg0.N) (p' : Fin 2000) (k : Fin 128) :
    (iblk m c 0 t : Vec Ideal S2000x128 .f32) (ix2 p' k)
      = (V m c (Pipeline.arrRef spec0 0) : S50000x128.Idx → EReal) (ix2 (rowAt t p') k) := by
  unfold iblk
  exact read_rows0 t _ p' k

/-- Input window 1's block at point `t` is those rows of its array as the region finds it. -/
theorem blk1 (c : Dev nD) (t : Fin cfg0.N) (p' : Fin 2000) (k : Fin 128) :
    (iblk m c 1 t : Vec Ideal S2000x128 .f32) (ix2 p' k)
      = (V m c (Pipeline.arrRef spec0 1) : S50000x128.Idx → EReal) (ix2 (rowAt t p') k) := by
  unfold iblk
  exact read_rows1 t _ p' k

/-- Input window 2's block at point `t` is those rows of its array as the region finds it. -/
theorem blk2 (c : Dev nD) (t : Fin cfg0.N) (p' : Fin 2000) (k : Fin 128) :
    (iblk m c 2 t : Vec Ideal S2000x128 .f32) (ix2 p' k)
      = (V m c (Pipeline.arrRef spec0 2) : S50000x128.Idx → EReal) (ix2 (rowAt t p') k) := by
  unfold iblk
  exact read_rows2 t _ p' k

/-- Input window 3's block at point `t` is those rows of its array as the region finds it. -/
theorem blk3 (c : Dev nD) (t : Fin cfg0.N) (p' : Fin 2000) (k : Fin 128) :
    (iblk m c 3 t : Vec Ideal S2000x128 .f32) (ix2 p' k)
      = (V m c (Pipeline.arrRef spec0 3) : S50000x128.Idx → EReal) (ix2 (rowAt t p') k) := by
  unfold iblk
  exact read_rows3 t _ p' k

/-- Input window 4's block at point `t` is those rows of its array as the region finds it. -/
theorem blk4 (c : Dev nD) (t : Fin cfg0.N) (p' : Fin 2000) (k : Fin 128) :
    (iblk m c 4 t : Vec Ideal S2000x128 .f32) (ix2 p' k)
      = (V m c (Pipeline.arrRef spec0 4) : S50000x128.Idx → EReal) (ix2 (rowAt t p') k) := by
  unfold iblk
  exact read_rows4 t _ p' k

/-- Input window 5's block at every point is its whole array as the region finds it. -/
theorem blk5 (c : Dev nD) (t : Fin cfg0.N) :
    (iblk m c 5 t : Vec Ideal S128x128 .f32) = (V m c (Pipeline.arrRef spec0 5) : S128x128.Idx → EReal) := by
  unfold iblk
  exact read_whole5 t _

/-- Input window 6's block at every point is its whole array as the region finds it. -/
theorem blk6 (c : Dev nD) (t : Fin cfg0.N) :
    (iblk m c 6 t : Vec Ideal S128x128 .f32) = (V m c (Pipeline.arrRef spec0 6) : S128x128.Idx → EReal) := by
  unfold iblk
  exact read_whole6 t _

/-- Input window 7's block at every point is its whole array as the region finds it. -/
theorem blk7 (c : Dev nD) (t : Fin cfg0.N) :
    (iblk m c 7 t : Vec Ideal S1x128 .f32) = (V m c (Pipeline.arrRef spec0 7) : S1x128.Idx → EReal) := by
  unfold iblk
  exact read_whole7 t _

end Cert.ExiLayer.Kern

end
-- ==== Proof.BodyLayer.lean ====
/-
  What the kernel's body stores, as the layer's functions of the blocks it loads.

  At one grid point the body loads a block of 2000 rows of each of the four aggregated arrays and of `z`, the whole
  of `W` and `dW`, and the bias as a `1 × 128` row. It stores three blocks: the updated output, the fixed term and the
  total aggregate of those 2000 rows. A change of float format is the identity on the extended reals and a matrix unit
  product into a zero accumulator is the plain sum of products, so the three stored blocks are the layer's three
  functions (LayerSpec) of the loaded blocks.
-/
import proofs.«127560_j19782619365928_1_alg».proof.Proof.Gen.KernelIdeal.Skeleton
import proofs.«127560_j19782619365928_1_alg».proof.Proof.LayerSpec
import Idealize.ShloMosaic.Lib.Pipeline.Value
import Idealize.ShloMosaic.Lib.ValueLayout

noncomputable section

namespace Cert.ExiLayer.Body

open Cert.KernelIdeal Cert.KernelIdeal.Gen Idealize.ShloMosaic Idealize.ShloMosaic.ValueIdx Cert.Lib.PlainDot

/-- The body's two matrix products contract the left operand's columns with the right operand's rows. -/
theorem dot_plain : dot_S2000x128_S128x128_S2000x128_1_0_0_1_n_n = DotDims.plain 2000 128 128 := rfl

variable (v0 v2 v5 v8 v19 : Vec Ideal S2000x128 .f32) (v13 v15 : Vec Ideal S128x128 .f32) (v22 : Vec Ideal S1x128 .f32)

/-- The sum of the three correction blocks. -/
theorem pay1_eq : k0_pay1 (F := Ideal) v0 v2 v5 = fixedIn v0 v2 v5 := by
  unfold k0_pay1
  simp only [shapeCast_self]
  rfl

/-- The stored total aggregate. -/
theorem pay2_eq : k0_pay2 (F := Ideal) v0 v2 v5 v8 = total v8 v0 v2 v5 := by
  unfold k0_pay2
  simp only [shapeCast_self, pay1_eq]
  rfl

/-- The stored fixed term. -/
theorem pay3_eq : k0_pay3 (F := Ideal) v0 v2 v5 v13 = fixedTerm v0 v2 v5 v13 := by
  unfold k0_pay3
  simp only [pay1_eq]
  exact matmul_zero_eq _ dot_plain none _ _

/-- The stored updated output, at row `p` and column `q` of the block. -/
theorem pay4_apply (p : Fin 2000) (q : Fin 128) :
    k0_pay4 (F := Ideal) v0 v2 v5 v8 v13 v15 v19 v22 (ix2 p q) = updated v8 v0 v2 v5 v19 v13 v15 (rowOf v22) (ix2 p q) := by
  have e18 : matmul dot_S2000x128_S128x128_S2000x128_1_0_0_1_n_n none (truncf .bf16 (total v8 v0 v2 v5) bitsLt_bf16_f32)
      (truncf .bf16 v15 bitsLt_bf16_f32) (constant (F := Ideal) S2000x128 .f32 0x00000000#32) = rowsByCols (total v8 v0 v2 v5) v15 :=
    matmul_zero_eq _ dot_plain none _ _
  have e24 : broadcastTo S2000x128 (shapeCast S1x128 v22 shapeCasts_S1x128_S1x128) broadcasts_S1x128_S2000x128 (ix2 p q)
      = v22 (ix2 (0 : Fin 1) q) := by
    rw [shapeCast_self]
    exact broadcastTo_1b_ab_apply v22 _ p q
  unfold k0_pay4
  simp only [pay3_eq, pay2_eq]
  show v19 (ix2 p q) + fixedTerm v0 v2 v5 v13 (ix2 p q) + _ + _ = _
  rw [e18, e24]
  rfl

end Cert.ExiLayer.Body

end
-- ==== Proof.KernelLayer.lean ====
/-
  The kernel's three result arrays as the layer's functions of the arrays its region finds.

  At grid point `t` the body stores, into each output window's block, the layer's function of the blocks it loaded
  (BodyLayer), and those blocks are rows `2000 t … 2000 t + 1999` of the arrays (KernelBlocks). Every entry of the
  layer's results depends on one row of the row-indexed inputs, so what point `t` writes back is block `t` of the
  layer's function of the whole arrays; the 25 blocks tile the 50000 rows, so each result array ends holding that
  function everywhere.
-/
import proofs.«127560_j19782619365928_1_alg».proof.Proof.Gen.KernelIdeal.Value
import proofs.«127560_j19782619365928_1_alg».proof.Proof.KernelBlocks
import proofs.«127560_j19782619365928_1_alg».proof.Proof.BodyLayer

noncomputable section

namespace Cert.ExiLayer.Kern

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The updated output of the arrays the region finds. -/
def outZ (c : Dev nD) : Mat 50000 :=
  updated (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (rowOf (V m c (Pipeline.arrRef spec0 7)))

/-- Their fixed term. -/
def outF (c : Dev nD) : Mat 50000 :=
  fixedTerm (V m c (Pipeline.arrRef spec0 1)) (V m c (Pipeline.arrRef spec0 2)) (V m c (Pipeline.arrRef spec0 3))
    (V m c (Pipeline.arrRef spec0 5))

/-- Their total aggregate. -/
def outB (c : Dev nD) : Mat 50000 :=
  total (V m c (Pipeline.arrRef spec0 0)) (V m c (Pipeline.arrRef spec0 1)) (V m c (Pipeline.arrRef spec0 2))
    (V m c (Pipeline.arrRef spec0 3))

/-- What point `t` writes back to the third result is block `t` of the total aggregate. -/
theorem flushed10_eq (c : Dev nD) (t : Fin cfg0.N) :
    (dats m 0 c).flushed 10 t = ((cfg0.win 10).blk t).view.read (Elt Ideal) (outB m c) := by
  rw [flushed10]
  unfold out0_10
  rw [View.canon_unit_zero hz]
  simp only [View.ld_unit_zero (S := S2000x128) hz]
  funext j
  obtain ⟨p', q, rfl⟩ : ∃ (p' : Fin 2000) (q : Fin 128), j = ix2 p' q := ⟨j 0, j 1, eq_ix2 j⟩
  show k0_pay2 (iblk m c 1 t) (iblk m c 2 t) (iblk m c 3 t) (iblk m c 0 t) (ix2 p' q) = _
  rw [read_rows10 t _ p' q, Body.pay2_eq]
  exact total_rows _ _ _ _ _ _ _ _ p' (rowAt t p') (blk0 m c t p') (blk1 m c t p') (blk2 m c t p') (blk3 m c t p') q

/-- What point `t` writes back to the second result is block `t` of the fixed term. -/
theorem flushed9_eq (c : Dev nD) (t : Fin cfg0.N) :
    (dats m 0 c).flushed 9 t = ((cfg0.win 9).blk t).view.read (Elt Ideal) (outF m c) := by
  rw [flushed9]
  unfold out0_9
  rw [View.canon_unit_zero hz]
  simp only [View.ld_unit_zero (S := S2000x128) hz, View.ld_unit_zero (S := S128x128) hz]
  funext j
  obtain ⟨p', q, rfl⟩ : ∃ (p' : Fin 2000) (q : Fin 128), j = ix2 p' q := ⟨j 0, j 1, eq_ix2 j⟩
  show k0_pay3 (iblk m c 1 t) (iblk m c 2 t) (iblk m c 3 t) (iblk m c 5 t) (ix2 p' q) = _
  rw [read_rows9 t _ p' q, Body.pay3_eq, blk5 m c t]
  exact fixedTerm_rows _ _ _ _ _ _ _ p' (rowAt t p') (blk1 m c t p') (blk2 m c t p') (blk3 m c t p') q

/-- What point `t` writes back to the first result is block `t` of the updated output. -/
theorem flushed8_eq (c : Dev nD) (t : Fin cfg0.N) :
    (dats m 0 c).flushed 8 t = ((cfg0.win 8).blk t).view.read (Elt Ideal) (outZ m c) := by
  rw [flushed8]
  unfold out0_8
  rw [View.canon_unit_zero hz]
  simp only [View.ld_unit_zero (S := S2000x128) hz, View.ld_unit_zero (S := S128x128) hz, View.ld_unit_zero (S := S1x128) hz]
  funext j
  obtain ⟨p', q, rfl⟩ : ∃ (p' : Fin 2000) (q : Fin 128), j = ix2 p' q := ⟨j 0, j 1, eq_ix2 j⟩
  show k0_pay4 (iblk m c 1 t) (iblk m c 2 t) (iblk m c 3 t) (iblk m c 0 t) (iblk m c 5 t) (iblk m c 6 t) (iblk m c 4 t)
    (iblk m c 7 t) (ix2 p' q) = _
  rw [read_rows8 t _ p' q, Body.pay4_apply, blk5 m c t, blk6 m c t, blk7 m c t]
  exact updated_rows _ _ _ _ _ _ _ _ _ _ _ _ _ p' (rowAt t p') (blk0 m c t p') (blk1 m c t p') (blk2 m c t p')
    (blk3 m c t p') (blk4 m c t p') q

/-- Every row of a result array lies in the block of the point numbered by the row's quotient by 2000. -/
theorem point_of_row (i : S50000x128.Idx) : (i 0).val / 2000 < cfg0.N := by
  have h : cfg0.N = 25 := N_0
  have hi : (i 0).val < 50000 := idx2_lt0 i
  omega

/-- The first result array after the run. -/
theorem final8 (c : Dev nD) : (dats m 0 c).arrAt 8 cfg0.N = outZ m c :=
  (dats m 0 c).arrAt_eq_of_cover 8 (outZ m c) (fun t _ => flushed8_eq m c t) fun i =>
    ⟨⟨(i 0).val / 2000, point_of_row i⟩, flush0_8 _, by
      obtain ⟨-, -, -, -, -, -, -, -, ⟨e0, e1⟩, -⟩ := idx_facts ⟨(i 0).val / 2000, point_of_row i⟩
      have hi0 : (i 0).val < 50000 := idx2_lt0 i
      have hi1 : (i 1).val < 128 := idx2_lt1 i
      show i ∈ ((View.whole main_v53_0).slice (win0_8.rect ⟨(i 0).val / 2000, point_of_row i⟩)).set
      rw [View.set_slice_whole, Rect.mem_set_unit]
      intro a
      match a with
      | ⟨0, _⟩ =>
        show win0_8.index ⟨(i 0).val / 2000, point_of_row i⟩ (0 : Fin 2) * 2000 ≤ (i 0).val
          ∧ (i 0).val < win0_8.index ⟨(i 0).val / 2000, point_of_row i⟩ (0 : Fin 2) * 2000 + 2000
        rw [e0]; show (i 0).val / 2000 * 2000 ≤ (i 0).val ∧ (i 0).val < (i 0).val / 2000 * 2000 + 2000; omega
      | ⟨1, _⟩ =>
        show win0_8.index ⟨(i 0).val / 2000, point_of_row i⟩ (1 : Fin 2) * 128 ≤ (i 1).val
          ∧ (i 1).val < win0_8.index ⟨(i 0).val / 2000, point_of_row i⟩ (1 : Fin 2) * 128 + 128
        rw [e1]; omega⟩

/-- The second result array after the run. -/
theorem final9 (c : Dev nD) : (dats m 0 c).arrAt 9 cfg0.N = outF m c :=
  (dats m 0 c).arrAt_eq_of_cover 9 (outF m c) (fun t _ => flushed9_eq m c t) fun i =>
    ⟨⟨(i 0).val / 2000, point_of_row i⟩, flush0_9 _, by
      obtain ⟨-, -, -, -, -, -, -, -, -, ⟨e0, e1⟩, -⟩ := idx_facts ⟨(i 0).val / 2000, point_of_row i⟩
      have hi0 : (i 0).val < 50000 := idx2_lt0 i
      have hi1 : (i 1).val < 128 := idx2_lt1 i
      show i ∈ ((View.whole main_v53_1).slice (win0_9.rect ⟨(i 0).val / 2000, point_of_row i⟩)).set
      rw [View.set_slice_whole, Rect.mem_set_unit]
      intro a
      match a with
      | ⟨0, _⟩ =>
        show win0_9.index ⟨(i 0).val / 2000, point_of_row i⟩ (0 : Fin 2) * 2000 ≤ (i 0).val
          ∧ (i 0).val < win0_9.index ⟨(i 0).val / 2000, point_of_row i⟩ (0 : Fin 2) * 2000 + 2000
        rw [e0]; show (i 0).val / 2000 * 2000 ≤ (i 0).val ∧ (i 0).val < (i 0).val / 2000 * 2000 + 2000; omega
      | ⟨1, _⟩ =>
        show win0_9.index ⟨(i 0).val / 2000, point_of_row i⟩ (1 : Fin 2) * 128 ≤ (i 1).val
          ∧ (i 1).val < win0_9.index ⟨(i 0).val / 2000, point_of_row i⟩ (1 : Fin 2) * 128 + 128
        rw [e1]; omega⟩

/-- The third result array after the run. -/
theorem final10 (c : Dev nD) : (dats m 0 c).arrAt 10 cfg0.N = outB m c :=
  (dats m 0 c).arrAt_eq_of_cover 10 (outB m c) (fun t _ => flushed10_eq m c t) fun i =>
    ⟨⟨(i 0).val / 2000, point_of_row i⟩, flush0_10 _, by
      obtain ⟨-, -, -, -, -, -, -, -, -, -, ⟨e0, e1⟩⟩ := idx_facts ⟨(i 0).val / 2000, point_of_row i⟩
      have hi0 : (i 0).val < 50000 := idx2_lt0 i
      have hi1 : (i 1).val < 128 := idx2_lt1 i
      show i ∈ ((View.whole main_v53_2).slice (win0_10.rect ⟨(i 0).val / 2000, point_of_row i⟩)).set
      rw [View.set_slice_whole, Rect.mem_set_unit]
      intro a
      match a with
      | ⟨0, _⟩ =>
        show win0_10.index ⟨(i 0).val / 2000, point_of_row i⟩ (0 : Fin 2) * 2000 ≤ (i 0).val
          ∧ (i 0).val < win0_10.index ⟨(i 0).val / 2000, point_of_row i⟩ (0 : Fin 2) * 2000 + 2000
        rw [e0]; show (i 0).val / 2000 * 2000 ≤ (i 0).val ∧ (i 0).val < (i 0).val / 2000 * 2000 + 2000; omega
      | ⟨1, _⟩ =>
        show win0_10.index ⟨(i 0).val / 2000, point_of_row i⟩ (1 : Fin 2) * 128 ≤ (i 1).val
          ∧ (i 1).val < win0_10.index ⟨(i 0).val / 2000, point_of_row i⟩ (1 : Fin 2) * 128 + 128
        rw [e1]; omega⟩

/-- The kernel's run, read: the three result arrays at the layer's functions of the arrays the region finds, the
    arguments unchanged. -/
theorem run : θ_run defs (onTc (τ := τ) (main (F := Ideal))) ⟨m, fun _ => 0, ρ⟩ fun r => ∀ c : Dev nD,
      r.2.mem ((c : Thread nD τ).loc main_v53_0) = outZ m c
      ∧ r.2.mem ((c : Thread nD τ).loc main_v53_1) = outF m c
      ∧ r.2.mem ((c : Thread nD τ).loc main_v53_2) = outB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final8 m c), (h c).2.1.trans (final9 m c),
      (h c).2.2.1.trans (final10 m c), (h c).2.2.2⟩)
    (run_blocks m ρ)

end Cert.ExiLayer.Kern

end
-- ==== Proof.EntryArrays.lean ====
/-
  The arrays the kernel's region finds, as functions of the program's arguments.

  Before its one region the kernel's program computes the four sparse aggregations with the same host operations, in
  the same order and with the same constants, as the reference does: so each aggregated array the region finds is,
  as a term, the reference's (the two programs' dimension records have the same fields). The aggregations are not
  opened. `z`, `W` and `dW` are arguments no host operation writes, and the bias row is the bias vector recast to
  `1 × 128`.
-/
import proofs.«127560_j19782619365928_1_alg».proof.Proof.Gen.KernelIdeal.Frame
import proofs.«127560_j19782619365928_1_alg».proof.Proof.Gen.ReferenceIdeal.Read
import proofs.«127560_j19782619365928_1_alg».proof.Proof.LayerSpec
import Idealize.ShloMosaic.Lib.StableHlo.Run
import Idealize.ShloMosaic.Lib.ValueLayout

noncomputable section

namespace Cert.ExiLayer.Entry

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The first aggregated array: the cached graph's edges on the cached features. -/
theorem agg_v12 (c : Dev nD) : (V m c main_v12 : S50000x128.Idx → EReal)
    = Cert.ReferenceIdeal.Read.val_main_v12 (F := Ideal) (m ((c : Thread nD τ).loc main_arg0))
        (m ((c : Thread nD τ).loc main_arg2)) (m ((c : Thread nD τ).loc main_arg3)) (m ((c : Thread nD τ).loc main_arg4)) := by
  dsimp only [V, hostOps0]
  after_results_simp
  rfl

/-- The second: the cached graph's edges on the feature change. -/
theorem agg_v25 (c : Dev nD) : (V m c main_v25 : S50000x128.Idx → EReal)
    = Cert.ReferenceIdeal.Read.val_main_v25 (F := Ideal) (m ((c : Thread nD τ).loc main_arg1))
        (m ((c : Thread nD τ).loc main_arg2)) (m ((c : Thread nD τ).loc main_arg3)) (m ((c : Thread nD τ).loc main_arg4)) := by
  dsimp only [V, hostOps0]
  after_results_simp
  rfl

/-- The third: the changed edges on the cached features. -/
theorem agg_v38 (c : Dev nD) : (V m c main_v38 : S50000x128.Idx → EReal)
    = Cert.ReferenceIdeal.Read.val_main_v38 (F := Ideal) (m ((c : Thread nD τ).loc main_arg0))
        (m ((c : Thread nD τ).loc main_arg5)) (m ((c : Thread nD τ).loc main_arg6)) (m ((c : Thread nD τ).loc main_arg7)) := by
  dsimp only [V, hostOps0]
  after_results_simp
  rfl

/-- The fourth: the changed edges on the feature change. -/
theorem agg_v51 (c : Dev nD) : (V m c main_v51 : S50000x128.Idx → EReal)
    = Cert.ReferenceIdeal.Read.val_main_v51 (F := Ideal) (m ((c : Thread nD τ).loc main_arg1))
        (m ((c : Thread nD τ).loc main_arg5)) (m ((c : Thread nD τ).loc main_arg6)) (m ((c : Thread nD τ).loc main_arg7)) := by
  dsimp only [V, hostOps0]
  after_results_simp
  rfl

/-- The bias row, read as a vector, is the bias vector. -/
theorem bias_v52 (c : Dev nD) : rowOf (V m c main_v52 : S1x128.Idx → EReal)
    = (m ((c : Thread nD τ).loc main_arg11) : S128.Idx → EReal) := by
  have e : (V m c main_v52 : S1x128.Idx → EReal)
      = shapeCast S1x128 (m ((c : Thread nD τ).loc main_arg11) : S128.Idx → EReal) shapeCasts_S128_S1x128 := by
    dsimp only [V, hostOps0]
    after_results_simp
    rfl
  rw [e]
  funext k
  obtain ⟨q, rfl⟩ : ∃ q : Fin 128, k = ix1 q := ⟨k 0, eq_ix1 k⟩
  exact shapeCast_a_1a_apply _ _ 0 q

/-! The same, with each array named as the window that stages it. -/

theorem win0 (c : Dev nD) : (V m c (Pipeline.arrRef spec0 0) : S50000x128.Idx → EReal)
    = Cert.ReferenceIdeal.Read.val_main_v12 (F := Ideal) (m ((c : Thread nD τ).loc main_arg0))
        (m ((c : Thread nD τ).loc main_arg2)) (m ((c : Thread nD τ).loc main_arg3)) (m ((c : Thread nD τ).loc main_arg4)) := agg_v12 m c
theorem win1 (c : Dev nD) : (V m c (Pipeline.arrRef spec0 1) : S50000x128.Idx → EReal)
    = Cert.ReferenceIdeal.Read.val_main_v25 (F := Ideal) (m ((c : Thread nD τ).loc main_arg1))
        (m ((c : Thread nD τ).loc main_arg2)) (m ((c : Thread nD τ).loc main_arg3)) (m ((c : Thread nD τ).loc main_arg4)) := agg_v25 m c
theorem win2 (c : Dev nD) : (V m c (Pipeline.arrRef spec0 2) : S50000x128.Idx → EReal)
    = Cert.ReferenceIdeal.Read.val_main_v38 (F := Ideal) (m ((c : Thread nD τ).loc main_arg0))
        (m ((c : Thread nD τ).loc main_arg5)) (m ((c : Thread nD τ).loc main_arg6)) (m ((c : Thread nD τ).loc main_arg7)) := agg_v38 m c
theorem win3 (c : Dev nD) : (V m c (Pipeline.arrRef spec0 3) : S50000x128.Idx → EReal)
    = Cert.ReferenceIdeal.Read.val_main_v51 (F := Ideal) (m ((c : Thread nD τ).loc main_arg1))
        (m ((c : Thread nD τ).loc main_arg5)) (m ((c : Thread nD τ).loc main_arg6)) (m ((c : Thread nD τ).loc main_arg7)) := agg_v51 m c
theorem win4 (c : Dev nD) : (V m c (Pipeline.arrRef spec0 4) : S50000x128.Idx → EReal)
    = (m ((c : Thread nD τ).loc main_arg8) : S50000x128.Idx → EReal) := V_main_arg8 m c
theorem win5 (c : Dev nD) : (V m c (Pipeline.arrRef spec0 5) : S128x128.Idx → EReal)
    = (m ((c : Thread nD τ).loc main_arg9) : S128x128.Idx → EReal) := V_main_arg9 m c
theorem win6 (c : Dev nD) : (V m c (Pipeline.arrRef spec0 6) : S128x128.Idx → EReal)
    = (m ((c : Thread nD τ).loc main_arg10) : S128x128.Idx → EReal) := V_main_arg10 m c
theorem win7 (c : Dev nD) : rowOf (V m c (Pipeline.arrRef spec0 7) : S1x128.Idx → EReal)
    = (m ((c : Thread nD τ).loc main_arg11) : S128.Idx → EReal) := bias_v52 m c

end Cert.ExiLayer.Entry

end
-- ==== Proof.lean ====
/-
  The incremental graph-convolution layer: the kernel against its reference, on the extended reals.

  Both programs first form the same four sparse aggregations of the feature arrays over the two edge lists (gather the
  source rows, scale by the edge weights, scatter-add into the target rows), with the same operations in the same
  order; they are carried through as four arrays and never opened. On them both compute

      f = (adh + dah) + dadh,      fixed term = f · W,      b = ah + f,      new z = ((z + f · W) + b · dW) + bias,

  the reference on whole arrays of 50000 rows, the kernel block of 2000 rows by block of 2000 rows over 25 grid
  points, rounding the products' operands to a shorter float format first (the identity on the extended reals) and
  taking each product into a zero accumulator (the plain sum of products). Every entry of the three results depends
  on one row of the row-indexed inputs, so the blocks the kernel writes are the blocks of the reference's results; the
  sums are taken in the same order on both sides, so no entry needs to be finite and the precondition is not used.

  The parts: the layer's functions (LayerSpec); the reference's stages are those functions of its aggregations
  (RefLayer); the body's stored blocks are those functions of the loaded blocks (BodyLayer); which rows each block
  holds (KernelBlocks); the blocks assemble to the whole arrays (KernelLayer); the arrays the region finds are the
  reference's aggregations of the arguments (EntryArrays). The kernel's run with each result array named, and the
  reference's run with its stages read at an index, are the generated modules imported below.
-/
import proofs.«127560_j19782619365928_1_alg».proof.Defs
import proofs.«127560_j19782619365928_1_alg».proof.Proof.Gen.Kernel
import proofs.«127560_j19782619365928_1_alg».proof.Proof.Gen.Kernel.Skeleton
import proofs.«127560_j19782619365928_1_alg».proof.Proof.Gen.Kernel.Launch
import proofs.«127560_j19782619365928_1_alg».proof.Proof.Gen.Kernel.Points
import proofs.«127560_j19782619365928_1_alg».proof.Proof.Gen.Kernel.Frame
import proofs.«127560_j19782619365928_1_alg».proof.Proof.Gen.KernelIdeal
import proofs.«127560_j19782619365928_1_alg».proof.Proof.Gen.KernelIdeal.Skeleton
import proofs.«127560_j19782619365928_1_alg».proof.Proof.Gen.KernelIdeal.Launch
import proofs.«127560_j19782619365928_1_alg».proof.Proof.Gen.KernelIdeal.Points
import proofs.«127560_j19782619365928_1_alg».proof.Proof.Gen.KernelIdeal.Frame
import proofs.«127560_j19782619365928_1_alg».proof.Proof.Gen.KernelIdeal.Value
import proofs.«127560_j19782619365928_1_alg».proof.Proof.Gen.ReferenceIdeal
import proofs.«127560_j19782619365928_1_alg».proof.Proof.Gen.ReferenceIdeal.Run
import proofs.«127560_j19782619365928_1_alg».proof.Proof.Gen.ReferenceIdeal.Read
import proofs.«127560_j19782619365928_1_alg».proof.Proof.Gen.Pre_finite_inputs
import proofs.«127560_j19782619365928_1_alg».proof.Proof.RefLayer
import proofs.«127560_j19782619365928_1_alg».proof.Proof.KernelLayer
import proofs.«127560_j19782619365928_1_alg».proof.Proof.EntryArrays
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

open Cert.ExiLayer in
/-- Equal inputs give equal updated outputs. -/
theorem updated_of_eq {a0 a0' a1 a1' a2 a2' a3 a3' z z' : Mat 50000} {w w' dw dw' : Mat 128} {b b' : Row}
    (h0 : a0 = a0') (h1 : a1 = a1') (h2 : a2 = a2') (h3 : a3 = a3') (h4 : z = z') (h5 : w = w') (h6 : dw = dw') (h7 : b = b') :
    updated a0 a1 a2 a3 z w dw b = updated a0' a1' a2' a3' z' w' dw' b' := by
  subst h0 h1 h2 h3 h4 h5 h6 h7; rfl

open Cert.ExiLayer in
/-- Equal inputs give equal fixed terms. -/
theorem fixedTerm_of_eq {a1 a1' a2 a2' a3 a3' : Mat 50000} {w w' : Mat 128}
    (h1 : a1 = a1') (h2 : a2 = a2') (h3 : a3 = a3') (h5 : w = w') : fixedTerm a1 a2 a3 w = fixedTerm a1' a2' a3' w' := by
  subst h1 h2 h3 h5; rfl

open Cert.ExiLayer in
/-- Equal inputs give equal total aggregates. -/
theorem total_of_eq {a0 a0' a1 a1' a2 a2' a3 a3' : Mat 50000}
    (h0 : a0 = a0') (h1 : a1 = a1') (h2 : a2 = a2') (h3 : a3 = a3') : total a0 a1 a2 a3 = total a0' a1' a2' a3' := by
  subst h0 h1 h2 h3; rfl

/-- The kernel's three result arrays, as the layer's functions of the reference's aggregations of the arguments. -/
theorem kernel_results (m : (ℓ : Loc Cert.KernelIdeal.nD Cert.KernelIdeal.τ Cert.KernelIdeal.sig) → Buf (Elt Ideal) ℓ)
    (c : Dev Cert.KernelIdeal.nD) :
    Cert.ExiLayer.Kern.outZ m c = Cert.ReferenceIdeal.Read.val_main_v61 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        (m ((c : Thread Cert.KernelIdeal.nD Cert.KernelIdeal.τ).loc Cert.KernelIdeal.main_arg10))
        (m ((c : Thread Cert.KernelIdeal.nD Cert.KernelIdeal.τ).loc Cert.KernelIdeal.main_arg11))
    ∧ Cert.ExiLayer.Kern.outF m c = Cert.ReferenceIdeal.Read.val_main_v54 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg9))
    ∧ Cert.ExiLayer.Kern.outB m c = Cert.ReferenceIdeal.Read.val_main_v55 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7)) := by
  unfold Cert.ExiLayer.Kern.outZ Cert.ExiLayer.Kern.outF Cert.ExiLayer.Kern.outB
  refine ⟨?_, ?_, ?_⟩
  · exact (updated_of_eq (Cert.ExiLayer.Entry.win0 m c) (Cert.ExiLayer.Entry.win1 m c) (Cert.ExiLayer.Entry.win2 m c)
      (Cert.ExiLayer.Entry.win3 m c) (Cert.ExiLayer.Entry.win4 m c) (Cert.ExiLayer.Entry.win5 m c) (Cert.ExiLayer.Entry.win6 m c)
      (Cert.ExiLayer.Entry.win7 m c)).trans (Cert.ExiLayer.Ref.updated_eq _ _ _ _ _ _ _ _ _ _ _ _).symm
  · exact (fixedTerm_of_eq (Cert.ExiLayer.Entry.win1 m c) (Cert.ExiLayer.Entry.win2 m c) (Cert.ExiLayer.Entry.win3 m c)
      (Cert.ExiLayer.Entry.win5 m c)).trans (Cert.ExiLayer.Ref.fixedTerm_eq _ _ _ _ _ _ _ _ _).symm
  · exact (total_of_eq (Cert.ExiLayer.Entry.win0 m c) (Cert.ExiLayer.Entry.win1 m c) (Cert.ExiLayer.Entry.win2 m c)
      (Cert.ExiLayer.Entry.win3 m c)).trans (Cert.ExiLayer.Ref.total_eq _ _ _ _ _ _ _ _).symm

/-- Run from memories that agree on the arguments, the two idealized programs end with equal results. -/
theorem algebraic : Cert.algebraic_KernelIdeal_ReferenceIdeal := by
  intro m ρ m' ρ' _ hagree
  refine ⟨_, _, _, Cert.ExiLayer.Kern.run m ρ, ?_⟩
  refine (θ_run Cert.ReferenceIdeal.defs _ _).mono (fun _ h c => ?_) (Cert.ReferenceIdeal.Value.run (F := Ideal) m' ρ')
  obtain ⟨eZ, eF, eB⟩ := kernel_results m c
  obtain ⟨a0, a1, a2, a3, a4, a5, a6, a7, a8, a9, a10, a11⟩ := hagree c
  refine ⟨(h c).1.trans ?_, (h c).2.1.trans ?_, (h c).2.2.1.trans ?_, (h c).2.2.2⟩
  · rw [Cert.ReferenceIdeal.Read.val_main_v61_eq, eZ, a0, a1, a2, a3, a4, a5, a6, a7, a8, a9, a10, a11]
  · rw [Cert.ReferenceIdeal.Read.val_main_v54_eq, eF, a0, a1, a2, a3, a4, a5, a6, a7, a9]
  · rw [Cert.ReferenceIdeal.Read.val_main_v55_eq, eB, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
